-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩
abbrev S262144x2 : Shape := ⟨2, ![262144, 2]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_
  reducesTo_S_S_d : S_.ReducesTo [] S_

variable [Facts]

def fn {F : FTy → Type} [FloatOps F] (main_arg0 : FVec F S8192x128 .f32) (main_arg1 : FVec F S8192 .f32) (main_arg2 : FVec F S_ .f32) (main_arg3 : IVec S8192 32) (main_arg4 : IVec S262144x2 32) (main_arg5 : IVec S262144x2 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S8192x128 : Shape := ⟨2, ![8192, 128]⟩
abbrev S8192 : Shape := ⟨1, ![8192]⟩
abbrev S_ : Shape := ⟨0, ![]⟩
abbrev S262144x2 : Shape := ⟨2, ![262144, 2]⟩
abbrev S1x1 : Shape := ⟨2, ![1, 1]⟩
abbrev S262144x1 : Shape := ⟨2, ![262144, 1]⟩
abbrev S262144 : Shape := ⟨1, ![262144]⟩
abbrev S262144x128 : Shape := ⟨2, ![262144, 128]⟩
abbrev S1x2 : Shape := ⟨2, ![1, 2]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S2 : Shape := ⟨1, ![2]⟩

abbrev nBuf : Space → Nat
  | .hbm => 64
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S_, .f32⟩
  | .hbm, ⟨3, _⟩ => ⟨S8192, .i32⟩
  | .hbm, ⟨4, _⟩ => ⟨S262144x2, .i32⟩
  | .hbm, ⟨5, _⟩ => ⟨S262144x2, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S262144x1, .i32⟩
  | .hbm, ⟨19, _⟩ => ⟨S262144, .i32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144x128, .f32⟩
  | .hbm, ⟨29, _⟩ => ⟨S262144x1, .i32⟩
  | .hbm, ⟨30, _⟩ => ⟨S262144, .i32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144x128, .f32⟩
  | .hbm, ⟨40, _⟩ => ⟨S262144x1, .i32⟩
  | .hbm, ⟨41, _⟩ => ⟨S262144, .i32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S262144x1, .i32⟩
  | .hbm, ⟨50, _⟩ => ⟨S262144x128, .f32⟩
  | .hbm, ⟨51, _⟩ => ⟨S262144x1, .i32⟩
  | .hbm, ⟨52, _⟩ => ⟨S262144, .i32⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S262144x1, .i32⟩
  | .hbm, ⟨61, _⟩ => ⟨S262144x128, .f32⟩
  | .hbm, ⟨62, _⟩ => ⟨S1x2, .f32⟩
  | .hbm, ⟨63, _⟩ => ⟨S2, .f32⟩
  | .local _ .vmem, ⟨0, _⟩ => ⟨S1x1, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S1x2, .f32⟩
  | .local _ .vmem, ⟨10, _⟩ => ⟨S1x1, .f32⟩
  | .local _ .vmem, ⟨11, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v41 : BitVec 1 := Scalar.cmpi .eq arg0 c63_i32
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S_S1x1 : S_.ShapeCasts S1x1
  slices_S262144x2_S262144x1_0_0 : S262144x2.Slices ![0, 0] S262144x1
  shapeCasts_S262144x1_S262144 : S262144x1.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  slices_S262144x2_S262144x1_0_1 : S262144x2.Slices ![0, 1] S262144x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  broadcasts_S1x1_S4096x1 : S1x1.Broadcasts S4096x1
  concatenates_S1x1_S1x1_S1x2_d1 : Shape.Concatenates [S1x1, S1x1] S1x2 1
  inb_S1x2_S1x2_0_0 : ∀ a, (![0, 0] : Fin 2 → Nat) a + S1x2.size a ≤ S1x2.size a
  h_S1x2 : 0 < S1x2.numel
  shapeCasts_S1x2_S2 : S1x2.ShapeCasts S2
  gather_S8192x128_S262144x1_S262144x128_1_0_n_n_0_1_1128_wf : GatherDims.WF S8192x128 S262144x1 S262144x128 [1] [0] [] [0] [] 1 ![1, 128]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S262144x128.size a
  hwx0_3 : ∀ i : grid0.Coords, EltTy.bits .f32 = 32 ∨ (Rect.block (s := S262144x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S262144x128.size a
  hwx0_4 : ∀ i : grid0.Coords, EltTy.bits .f32 = 32 ∨ (Rect.block (s := S262144x128) S4096x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2.size a ≤ S1x2.size a
  hwx0_5 : ∀ i : grid0.Coords, EltTy.bits .f32 = 32 ∨ (Rect.block (s := S1x2) S1x2.size (cc0_transform_5 i) (hinb0_5 i)).WholeWords (EltTy.packing .f32)

variable [Facts₀]

def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf

abbrev win0_0 : Pipeline.Window sig grid0 :=
  Pipeline.Window.ofSpec (Memref.whole main_v1) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S4096x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x2.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S262144x2 : Shape := ⟨2, ![262144, 2]⟩
abbrev S262144x1 : Shape := ⟨2, ![262144, 1]⟩
abbrev S262144 : Shape := ⟨1, ![262144]⟩
abbrev S262144x128 : Shape := ⟨2, ![262144, 128]⟩
abbrev S1 : Shape := ⟨1, ![1]⟩
abbrev S2 : Shape := ⟨1, ![2]⟩

abbrev nBuf : Space → Nat
  | .hbm => 91
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S_, .f32⟩
  | .hbm, ⟨3, _⟩ => ⟨S8192, .i32⟩
  | .hbm, ⟨4, _⟩ => ⟨S262144x2, .i32⟩
  | .hbm, ⟨5, _⟩ => ⟨S262144x2, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S262144x1, .i32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x128, .f32⟩
  | .hbm, ⟨28, _⟩ => ⟨S262144x1, .i32⟩
  | .hbm, ⟨29, _⟩ => ⟨S262144, .i32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x128, .f32⟩
  | .hbm, ⟨39, _⟩ => ⟨S262144x128, .f32⟩
  | .hbm, ⟨40, _⟩ => ⟨S262144x128, .f32⟩
  | .hbm, ⟨41, _⟩ => ⟨S_, .f32⟩
  | .hbm, ⟨42, _⟩ => ⟨S262144, .f32⟩
  | .hbm, ⟨43, _⟩ => ⟨S262144x1, .i32⟩
  | .hbm, ⟨44, _⟩ => ⟨S262144, .i32⟩
  | .hbm, ⟨45, _⟩ => ⟨S_, .i32⟩
  | .hbm, ⟨46, _⟩ => ⟨S262144, .i32⟩
  | .hbm, ⟨47, _⟩ => ⟨S262144, .i1⟩
  | .hbm, ⟨48, _⟩ => ⟨S_, .i32⟩
  | .hbm, ⟨49, _⟩ => ⟨S262144, .i32⟩
  | .hbm, ⟨50, _⟩ => ⟨S262144, .i32⟩
  | .hbm, ⟨51, _⟩ => ⟨S262144, .i32⟩
  | .hbm, ⟨52, _⟩ => ⟨S262144x1, .i32⟩
  | .hbm, ⟨53, _⟩ => ⟨S262144x128, .f32⟩
  | .hbm, ⟨54, _⟩ => ⟨S262144x1, .i32⟩
  | .hbm, ⟨55, _⟩ => ⟨S262144, .i32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x128, .f32⟩
  | .hbm, ⟨65, _⟩ => ⟨S262144x128, .f32⟩
  | .hbm, ⟨66, _⟩ => ⟨S262144x128, .f32⟩
  | .hbm, ⟨67, _⟩ => ⟨S_, .f32⟩
  | .hbm, ⟨68, _⟩ => ⟨S262144, .f32⟩
  | .hbm, ⟨69, _⟩ => ⟨S262144, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S262144, .f32⟩
  | .hbm, ⟨77, _⟩ => ⟨S262144, .f32⟩
  | .hbm, ⟨78, _⟩ => ⟨S_, .f32⟩
  | .hbm, ⟨79, _⟩ => ⟨S262144, .f32⟩
  | .hbm, ⟨80, _⟩ => ⟨S262144, .f32⟩
  | .hbm, ⟨81, _⟩ => ⟨S262144, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S1, .f32⟩
  | .hbm, ⟨89, _⟩ => ⟨S1, .f32⟩
  | .hbm, ⟨90, _⟩ => ⟨S2, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_3 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩

abbrev nD : Nat := 1
abbrev τ : Topo := Topo.v7x

variable {F : FTy → Type} [FloatOps F]

class Facts₀ : Prop where
  slices_S262144x2_S262144x1_0_0 : S262144x2.Slices ![0, 0] S262144x1
  shapeCasts_S262144x1_S262144 : S262144x1.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  slices_S262144x2_S262144x1_0_1 : S262144x2.Slices ![0, 1] S262144x1
  reducesTo_S262144x128_S262144_d1 : S262144x128.ReducesTo [1] S262144
  h_S_ : 0 < S_.numel
  reducesTo_S262144_S_d0 : S262144.ReducesTo [0] S_
  bcast_S_S1 : S_.BroadcastsInDim S1 (![] : Fin 0 → Fin S1.rank)
  concatenates_S1_S1_S2_d0 : Shape.Concatenates [S1, S1] S2 0
  gather_S8192x128_S262144x1_S262144x128_1_0_n_n_0_1_1128_wf : GatherDims.WF S8192x128 S262144x1 S262144x128 [1] [0] [] [0] [] 1 ![1, 128]

variable [Facts₀]

def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf

class Facts : Prop extends Facts₀ where

variable [Facts]
-- ==== Proof.KernelPieces.lean ====
/-
  What each control case of the body leaves in the two accumulators and in the output row, as the
  body's stored values of the blocks it loaded.

  Every store of the body covers its whole buffer, so a buffer read back after a case is the value of
  the last store into it; a load of a buffer the same case stored before reads that store's value.
  * first point: the positive accumulator ends at the update of the zero cell, the negative one likewise;
  * later points: each accumulator ends at the update of what the point before left in it;
  * last point: the output row is the scaled pair of the two accumulators as just updated.
-/
import proofs.«150820_j4157528343143_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The update of the positive accumulator `acc` by the blocks `x1`, `x2`. -/
abbrev posStep (x1 x2 : Vec F S4096x128 .f32) (acc : Vec F S1x1 .f32) : Vec F S1x1 .f32 := k0_pay5 x1 x2 acc

/-- The update of the negative accumulator `acc` by the blocks `x3`, `x4` at the margin cell `x0`. -/
abbrev negStep (x0 : Vec F S1x1 .f32) (x3 x4 : Vec F S4096x128 .f32) (acc : Vec F S1x1 .f32) : Vec F S1x1 .f32 :=
  k0_pay1 acc (k0_pay6 x3 x4 x0)

/-- First point: the positive accumulator ends at the update of the zero cell. -/
theorem first_pos (c : Dev nD) (i : grid0.Coords) (arg1 : Memref sig .tc .vmem S1x1 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S1x1 .f32) (x1 : Vec F S4096x128 .f32) (x2 : Vec F S4096x128 .f32) (x3 : Vec F S4096x128 .f32) (x4 : Vec F S4096x128 .f32) :
    sout0_A_0 c i arg1 harg1 arg2 harg2 arg3 harg3 arg4 harg4 arg5 harg5 arg6 harg6 arg7 harg7 arg8 harg8 hc0 hc1 x0 x1 x2 x3 x4 = posStep x1 x2 k0_pay3 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread,
    harg7.read_unread, harg8.read_unread, View.ld_unit_zero (S := S4096x128) hz, View.ld_unit_zero (S := S1x1) hz]

/-- First point: the negative accumulator ends at the update of the zero cell. -/
theorem first_neg (c : Dev nD) (i : grid0.Coords) (arg1 : Memref sig .tc .vmem S1x1 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S1x1 .f32) (x1 : Vec F S4096x128 .f32) (x2 : Vec F S4096x128 .f32) (x3 : Vec F S4096x128 .f32) (x4 : Vec F S4096x128 .f32) :
    sout0_A_1 c i arg1 harg1 arg2 harg2 arg3 harg3 arg4 harg4 arg5 harg5 arg6 harg6 arg7 harg7 arg8 harg8 hc0 hc1 x0 x1 x2 x3 x4 = negStep x0 x3 x4 k0_pay4 := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread,
    harg7.read_unread, harg8.read_unread, View.ld_unit_zero (S := S4096x128) hz, View.ld_unit_zero (S := S1x1) hz]

/-- A middle point: the positive accumulator ends at the update of what the point before left. -/
theorem mid_pos (c : Dev nD) (i : grid0.Coords) (arg1 : Memref sig .tc .vmem S1x1 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S1x1 .f32) (x1 : Vec F S4096x128 .f32) (x2 : Vec F S4096x128 .f32) (x3 : Vec F S4096x128 .f32) (x4 : Vec F S4096x128 .f32) (xs0 : Vec F S1x1 .f32) (xs1 : Vec F S1x1 .f32) :
    sout0_B_0 c i arg1 harg1 arg2 harg2 arg3 harg3 arg4 harg4 arg5 harg5 arg6 harg6 arg7 harg7 arg8 harg8 hc0 hc1 x0 x1 x2 x3 x4 xs0 xs1 = posStep x1 x2 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 x4 xs0 xs1)]
  unfold kernelRun0_B
  dsimp only
  sl_unfold_words
  rw [View.canon_unit_zero hz]
  simp only [View.readAt_eq_ld, harg1.read_unread, harg2.read_unread, harg3.read_unread, harg4.read_unread, harg5.read_unread,
    harg7.read_unread, harg8.read_unread, View.ld_unit_zero (S := S4096x128) hz, View.ld_unit_zero (S := S1x1) hz]

/-- A middle point: the negative accumulator ends at the update of what the point before left. -/
theorem mid_neg (c : Dev nD) (i : grid0.Coords) (arg1 : Memref sig .tc .vmem S1x1 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S1x1 .f32) (x1 : Vec F S4096x128 .f32) (x2 : Vec F S4096x128 .f32) (x3 : Vec F S4096x128 .f32) (x4 : Vec F S4096x128 .f32) (xs0 : Vec F S1x1 .f32) (xs1 : Vec F S1x1 .f32) :
    sout0_B_1 c i arg1 harg1 arg2 harg2 arg3 harg3 arg4 harg4 arg5 harg5 arg6 harg6 arg7 harg7 arg8 harg8 hc0 hc1 x0 x1 x2 x3 x4 xs0 xs1 = negStep x0 x3 x4 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 x4 xs0 xs1)]
  unfold kernelRun0_B
  dsimp only
  sl_unfold_words
  rw [View.canon_unit_zero hz]
  simp only [View.readAt_eq_ld, harg1.read_unread, harg2.read_unread, harg3.read_unread, harg4.read_unread, harg5.read_unread,
    harg7.read_unread, harg8.read_unread, View.ld_unit_zero (S := S4096x128) hz, View.ld_unit_zero (S := S1x1) hz]

/-- The last point updates the positive accumulator as a middle point does. -/
theorem last_pos (c : Dev nD) (i : grid0.Coords) (arg1 : Memref sig .tc .vmem S1x1 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S1x1 .f32) (x1 : Vec F S4096x128 .f32) (x2 : Vec F S4096x128 .f32) (x3 : Vec F S4096x128 .f32) (x4 : Vec F S4096x128 .f32) (xs0 : Vec F S1x1 .f32) (xs1 : Vec F S1x1 .f32) :
    sout0_C_0 c i arg1 harg1 arg2 harg2 arg3 harg3 arg4 harg4 arg5 harg5 arg6 harg6 arg7 harg7 arg8 harg8 hc0 hc1 x0 x1 x2 x3 x4 xs0 xs1 = posStep x1 x2 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 x4 xs0 xs1)]
  unfold kernelRun0_C
  dsimp only
  sl_unfold_words
  rw [View.canon_unit_zero hz]
  simp only [View.readAt_eq_ld, harg1.read_unread, harg2.read_unread, harg3.read_unread, harg4.read_unread, harg5.read_unread,
    harg7.read_unread, harg8.read_unread, View.ld_unit_zero (S := S4096x128) hz, View.ld_unit_zero (S := S1x1) hz]

/-- The last point updates the negative accumulator as a middle point does. -/
theorem last_neg (c : Dev nD) (i : grid0.Coords) (arg1 : Memref sig .tc .vmem S1x1 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S1x1 .f32) (x1 : Vec F S4096x128 .f32) (x2 : Vec F S4096x128 .f32) (x3 : Vec F S4096x128 .f32) (x4 : Vec F S4096x128 .f32) (xs0 : Vec F S1x1 .f32) (xs1 : Vec F S1x1 .f32) :
    sout0_C_1 c i arg1 harg1 arg2 harg2 arg3 harg3 arg4 harg4 arg5 harg5 arg6 harg6 arg7 harg7 arg8 harg8 hc0 hc1 x0 x1 x2 x3 x4 xs0 xs1 = negStep x0 x3 x4 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 x4 xs0 xs1)]
  unfold kernelRun0_C
  dsimp only
  sl_unfold_words
  rw [View.canon_unit_zero hz]
  simp only [View.readAt_eq_ld, harg1.read_unread, harg2.read_unread, harg3.read_unread, harg4.read_unread, harg5.read_unread,
    harg7.read_unread, harg8.read_unread, View.ld_unit_zero (S := S4096x128) hz, View.ld_unit_zero (S := S1x1) hz]

/-- The last point's output row: the scaled pair of the two accumulators as it has just updated them. -/
theorem last_row (c : Dev nD) (i : grid0.Coords) (arg1 : Memref sig .tc .vmem S1x1 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S1x1 .f32) (x1 : Vec F S4096x128 .f32) (x2 : Vec F S4096x128 .f32) (x3 : Vec F S4096x128 .f32) (x4 : Vec F S4096x128 .f32) (xs0 : Vec F S1x1 .f32) (xs1 : Vec F S1x1 .f32) :
    out0_C_5 c i arg1 harg1 arg2 harg2 arg3 harg3 arg4 harg4 arg5 harg5 arg6 harg6 arg7 harg7 arg8 harg8 hc0 hc1 x0 x1 x2 x3 x4 xs0 xs1 = k0_pay2 (posStep x1 x2 xs0) (negStep x0 x3 x4 xs1) := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 x4 xs0 xs1)]
  unfold kernelRun0_C
  dsimp only
  sl_unfold_words
  rw [View.canon_unit_zero hz, View.readCov_unit_zero (S := S1x1) _ hz, View.readCov_unit_zero (S := S1x1) _ hz]
  simp only [View.readAt_eq_ld, harg1.read_unread, harg2.read_unread, harg3.read_unread, harg4.read_unread, harg5.read_unread,
    harg7.read_unread, harg8.read_unread, View.ld_unit_zero (S := S4096x128) hz, View.ld_unit_zero (S := S1x1) hz]

end Cert.KernelIdeal.Pieces

end
-- ==== Proof.KernelAccum.lean ====
/-
  The two accumulators after each grid point, and the output row after the last.

  `accs n` is the pair of accumulators after point `n`: at point 0 each is the update of the zero cell by
  the point's blocks, at point `n + 1` the update of `accs n` by that point's blocks. What the frame run
  finds in the carried scratch after point `n` is `accs n` (induction on the point; the first point is the
  initialising case, the last the case that also writes the output row, the others the plain case), and
  the output row after the last point is the scaled pair of `accs 63`.
-/
import proofs.«150820_j4157528343143_1_alg».proof.Proof.KernelPieces

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- The accumulators (positive, negative) after point `n`. -/
def accs (c : Dev nD) : (n : ℕ) → n < cfg0.N → Vec F S1x1 .f32 × Vec F S1x1 .f32
  | 0, h => (posStep (iblk m c 1 ⟨0, h⟩) (iblk m c 2 ⟨0, h⟩) k0_pay3,
      negStep (iblk m c 0 ⟨0, h⟩) (iblk m c 3 ⟨0, h⟩) (iblk m c 4 ⟨0, h⟩) k0_pay4)
  | n + 1, h => (posStep (iblk m c 1 ⟨n + 1, h⟩) (iblk m c 2 ⟨n + 1, h⟩) (accs c n (Nat.lt_of_succ_lt h)).1,
      negStep (iblk m c 0 ⟨n + 1, h⟩) (iblk m c 3 ⟨n + 1, h⟩) (iblk m c 4 ⟨n + 1, h⟩) (accs c n (Nat.lt_of_succ_lt h)).2)

/-- The carried scratch after point `n` holds `accs n`. -/
theorem scratch_eq (c : Dev nD) : ∀ (n : ℕ) (h : n < cfg0.N), (outsAt0 m c n h).2 = accs m c n h
  | 0, h => by
    rw [outsAt0_A m c ⟨0, h⟩ rfl (show ¬(0 : ℕ) % 64 = 63 by decide)]
    exact Prod.ext (first_pos c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (fun hh => (show ¬(0 : ℕ) % 64 = 63 by decide) ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩))
      (first_neg c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) ((hcond0_0 ⟨0, h⟩).mpr rfl) (fun hh => (show ¬(0 : ℕ) % 64 = 63 by decide) ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩))
  | n + 1, h => by
    have hN : cfg0.N = 64 := N_0
    have ih := scratch_eq c n (Nat.lt_of_succ_lt h)
    have h0 : ¬(⟨n + 1, h⟩ : Fin cfg0.N).val % 64 = 0 := by dsimp only; omega
    by_cases h1 : (⟨n + 1, h⟩ : Fin cfg0.N).val % 64 = 63
    ·
      have hp := last_pos c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2
      have hq := last_neg c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2
      rw [outsAt0_C m c ⟨n + 1, h⟩ h0 h1]
      exact Prod.ext (hp.trans (by rw [ih]; rfl)) (hq.trans (by rw [ih]; rfl))
    ·
      have hp := mid_pos c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2
      have hq := mid_neg c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2
      rw [outsAt0_B m c ⟨n + 1, h⟩ h0 h1]
      exact Prod.ext (hp.trans (by rw [ih]; rfl)) (hq.trans (by rw [ih]; rfl))

/-- The output row after the last point: the scaled pair of the accumulators as that point leaves them. -/
theorem row_eq (c : Dev nD) (n : ℕ) (h : n + 1 < cfg0.N) (h1 : (⟨n + 1, h⟩ : Fin cfg0.N).val % 64 = 63) :
    (outsAt0 m c (n + 1) h).1 = k0_pay2 (accs m c (n + 1) h).1 (accs m c (n + 1) h).2 := by
  have h0 : ¬(⟨n + 1, h⟩ : Fin cfg0.N).val % 64 = 0 := by dsimp only at h1 ⊢; omega
  have hr := last_row c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 (outsAt0 m c n (Nat.lt_of_succ_lt h)).2.2
  rw [outsAt0_C m c ⟨n + 1, h⟩ h0 h1]
  exact hr.trans (by rw [scratch_eq m c n (Nat.lt_of_succ_lt h)]; rfl)

/-- The accumulators depend on the point's number only. -/
theorem accs_congr (c : Dev nD) (n n' : ℕ) (e : n = n') (h : n < cfg0.N) (h' : n' < cfg0.N) :
    accs m c n h = accs m c n' h' := by
  subst e; rfl

end Cert.KernelIdeal.Accum

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibCells.lean ====
/-
  Reads of single cells: a `[1, 1]` cell spread down a column `[a, 1]`, two `[1, 1]` cells joined side by
  side into `[1, 2]`, and two `[1]` cells joined end to end into `[2]`, each read at an index.
-/
import Idealize.ShloMosaic.Lib.Pipeline.Value
import Idealize.ShloMosaic.Lib.ValueIdx
import Idealize.ShloMosaic.Lib.ValueLayout

noncomputable section

namespace Cert.LibCells

open Idealize.ShloMosaic Idealize.ShloMosaic.ValueIdx

variable {α : Type}

/-- A `[1, 1]` cell broadcast to a column `[a, 1]` reads the cell at every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- Two `[1, 1]` cells joined along the second axis: position `(0, 0)` is the first cell. -/
theorem concat_cells_left (x y : (⟨2, ![1, 1]⟩ : Shape).Idx → α)
    (h : Shape.Concatenates [(⟨2, ![1, 1]⟩ : Shape), (⟨2, ![1, 1]⟩ : Shape)] ⟨2, ![1, 2]⟩ (1 : Fin 2)) :
    concatenate ⟨2, ![1, 2]⟩ (1 : Fin 2) [⟨⟨2, ![1, 1]⟩, x⟩, ⟨⟨2, ![1, 1]⟩, y⟩] h (ix2 (0 : Fin 1) (0 : Fin 2))
      = x (ix2 (0 : Fin 1) (0 : Fin 1)) := by
  refine concatenate_pair_apply_left (t := ⟨2, ![1, 2]⟩) (s₁ := ⟨2, ![1, 1]⟩) (s₂ := ⟨2, ![1, 1]⟩) (1 : Fin 2) x y h
    (ix2 (0 : Fin 1) (0 : Fin 2)) rfl (ix2 (0 : Fin 1) (0 : Fin 1)) fun b => ?_
  match b with
  | ⟨0, _⟩ => rfl
  | ⟨1, _⟩ => rfl

/-- … and position `(0, 1)` is the second cell. -/
theorem concat_cells_right (x y : (⟨2, ![1, 1]⟩ : Shape).Idx → α)
    (h : Shape.Concatenates [(⟨2, ![1, 1]⟩ : Shape), (⟨2, ![1, 1]⟩ : Shape)] ⟨2, ![1, 2]⟩ (1 : Fin 2)) :
    concatenate ⟨2, ![1, 2]⟩ (1 : Fin 2) [⟨⟨2, ![1, 1]⟩, x⟩, ⟨⟨2, ![1, 1]⟩, y⟩] h (ix2 (0 : Fin 1) (1 : Fin 2))
      = y (ix2 (0 : Fin 1) (0 : Fin 1)) := by
  refine concatenate_pair_apply_right (t := ⟨2, ![1, 2]⟩) (s₁ := ⟨2, ![1, 1]⟩) (s₂ := ⟨2, ![1, 1]⟩) (1 : Fin 2) x y h
    (ix2 (0 : Fin 1) (1 : Fin 2)) rfl rfl (ix2 (0 : Fin 1) (0 : Fin 1)) (fun b hb => ?_) rfl
  match b with
  | ⟨0, _⟩ => rfl
  | ⟨1, _⟩ => exact absurd rfl hb

/-- Two `[1]` cells joined end to end: position `0` is the first cell. -/
theorem concat_vec_left (x y : (⟨1, ![1]⟩ : Shape).Idx → α)
    (h : Shape.Concatenates [(⟨1, ![1]⟩ : Shape), (⟨1, ![1]⟩ : Shape)] ⟨1, ![2]⟩ (0 : Fin 1)) :
    concatenate ⟨1, ![2]⟩ (0 : Fin 1) [⟨⟨1, ![1]⟩, x⟩, ⟨⟨1, ![1]⟩, y⟩] h (ix1 (0 : Fin 2)) = x (ix1 (0 : Fin 1)) := by
  refine concatenate_pair_apply_left (t := ⟨1, ![2]⟩) (s₁ := ⟨1, ![1]⟩) (s₂ := ⟨1, ![1]⟩) (0 : Fin 1) x y h
    (ix1 (0 : Fin 2)) rfl (ix1 (0 : Fin 1)) fun b => ?_
  match b with
  | ⟨0, _⟩ => rfl

/-- … and position `1` is the second cell. -/
theorem concat_vec_right (x y : (⟨1, ![1]⟩ : Shape).Idx → α)
    (h : Shape.Concatenates [(⟨1, ![1]⟩ : Shape), (⟨1, ![1]⟩ : Shape)] ⟨1, ![2]⟩ (0 : Fin 1)) :
    concatenate ⟨1, ![2]⟩ (0 : Fin 1) [⟨⟨1, ![1]⟩, x⟩, ⟨⟨1, ![1]⟩, y⟩] h (ix1 (1 : Fin 2)) = y (ix1 (0 : Fin 1)) := by
  refine concatenate_pair_apply_right (t := ⟨1, ![2]⟩) (s₁ := ⟨1, ![1]⟩) (s₂ := ⟨1, ![1]⟩) (0 : Fin 1) x y h
    (ix1 (1 : Fin 2)) rfl rfl (ix1 (0 : Fin 1)) (fun b hb => ?_) rfl
  match b with
  | ⟨0, _⟩ => exact absurd rfl hb

/-- A `[1, 2]` row cast to a vector `[2]` reads its entry `k` at `(0, k)`. -/
theorem shapeCast_12_2_apply (x : (⟨2, ![1, 2]⟩ : Shape).Idx → α) (h : (⟨2, ![1, 2]⟩ : Shape).ShapeCasts ⟨1, ![2]⟩)
    (k : Fin 2) : shapeCast ⟨1, ![2]⟩ x h (ix1 k) = x (ix2 (0 : Fin 1) k) :=
  shapeCast_apply x h _ _ (by
    rw [Shape.rowMajor_val_two, Shape.rowMajor_val_one]
    show 0 * 2 + k.val = k.val
    omega)

/-- A rank-0 value cast to a `[1, 1]` cell reads the value. -/
theorem shapeCast_scalar_cell_apply (x : (⟨0, ![]⟩ : Shape).Idx → α) (h : (⟨0, ![]⟩ : Shape).ShapeCasts ⟨2, ![1, 1]⟩) :
    shapeCast ⟨2, ![1, 1]⟩ x h (ix2 (0 : Fin 1) (0 : Fin 1)) = x ix0 :=
  shapeCast_apply x h _ _ (by
    rw [Shape.rowMajor_val_two]
    rfl)

/-- A sum over the indices of a vector `[n]` is the sum over its positions. -/
theorem sum_idx1 {M : Type*} [AddCommMonoid M] {n : ℕ} (f : (⟨1, ![n]⟩ : Shape).Idx → M) :
    ∑ j : (⟨1, ![n]⟩ : Shape).Idx, f j = ∑ p : Fin n, f (ix1 p) :=
  Fintype.sum_equiv
    { toFun := fun j => (j 0 : Fin n), invFun := fun p => ix1 p,
      left_inv := fun j => (eq_ix1 j).symm, right_inv := fun _ => rfl }
    _ _ fun j => congrArg f (eq_ix1 j)

end Cert.LibCells

end
-- ==== Proof.KernelPayloads.lean ====
/-
  The kernel body's stored values read at an index, on the extended reals.

  The body keeps two `[1, 1]` accumulators. With `x, y : [4096, 128]` a block of each pair array and
  `rowSqB x y r = ∑ d, (x r d - y r d)²` the squared distance of the block's row `r`:
  * the positive accumulator's new value is the old one plus `blockSq x y = ∑ r, rowSqB x y r`
    (a lane sum kept as a column, then a sum down the column);
  * the negative accumulator's new value is the old one plus
    `blockHinge β x y = ∑ r, (max (β - √(rowSqB x y r)) 0)²`, `β` the margin cell spread down the column;
  * at the last point the output row is `(s · pos, s · neg)`, `s` the scale literal;
  * at the first point both accumulators start from the zero cell.
-/
import proofs.«150820_j4157528343143_1_alg».proof.Proof.Gen.KernelIdeal.Skeleton
import proofs.«150820_j4157528343143_1_alg».proof.Proof.LibKeepdims
import proofs.«150820_j4157528343143_1_alg».proof.Proof.LibCells
import Idealize.ShloMosaic.PureOps.Ideal.Laws
import Idealize.ShloMosaic.Lib.Pipeline.Value
import Idealize.ShloMosaic.Lib.ValueIdx

noncomputable section

namespace Cert.KernelIdeal.Payloads

open Cert.KernelIdeal Cert.KernelIdeal.Gen Idealize.ShloMosaic Idealize.ShloMosaic.ValueIdx

/-- The one index of a `[1, 1]` cell. -/
abbrev cell : S1x1.Idx := ix2 (0 : Fin 1) (0 : Fin 1)

/-- The squared distance of row `r` of a block. -/
def rowSqB (x y : FVec Ideal S4096x128 .f32) (r : Fin 4096) : EReal :=
  ∑ d : Fin 128, (x (ix2 r d) - y (ix2 r d)) * (x (ix2 r d) - y (ix2 r d))

/-- The sum of a block's squared distances. -/
def blockSq (x y : FVec Ideal S4096x128 .f32) : EReal := ∑ r : Fin 4096, rowSqB x y r

/-- The sum of a block's squared hinges at margin `β`. -/
def blockHinge (β : EReal) (x y : FVec Ideal S4096x128 .f32) : EReal :=
  ∑ r : Fin 4096, max (β - Ideal.sqrt (rowSqB x y r)) 0 * max (β - Ideal.sqrt (rowSqB x y r)) 0

/-- A lane sum of a block kept as a column: entry `(r, 0)` is the sum of row `r`. -/
theorem laneSum_apply (v : FVec Ideal S4096x128 .f32) (r : Fin 4096) (u : Fin 1)
    (hφ : FKind.Formats .f32) (hacc : (0x00000000#32 : BitVec 32) = FKind.add.neutral .f32 hφ) :
    shapeCast S4096x1 (multiReduction .add [1] S4096 v 0x00000000#32 reduces_S4096x128_S4096 hφ hacc) shapeCasts_S4096_S4096x1 (ix2 r u)
      = ∑ d : Fin 128, v (ix2 r d) :=
  (Cert.LibKeepdims.shapeCast_a_a1_apply _ _ r u).trans
    ((Ideal.multiReduction_add_single v 0x00000000#32 reduces_S4096x128_S4096 hφ hacc (ix1 r)).trans
      (Finset.sum_congr rfl fun d _ => congrArg v (funext fun a => Fin.ext (by match a with | ⟨0, _⟩ => rfl | ⟨1, _⟩ => rfl))))

/-- A sum down a column kept as a cell: the cell is the sum of the column's entries. -/
theorem colSum_apply (w : FVec Ideal S4096x1 .f32)
    (hφ : FKind.Formats .f32) (hacc : (0x00000000#32 : BitVec 32) = FKind.add.neutral .f32 hφ) :
    shapeCast S1x1 (multiReduction .add [0] S1 w 0x00000000#32 reduces_S4096x1_S1 hφ hacc) shapeCasts_S1_S1x1 cell
      = ∑ r : Fin 4096, w (ix2 r (0 : Fin 1)) :=
  (Cert.LibKeepdims.shapeCast_a_a1_apply _ _ (0 : Fin 1) (0 : Fin 1)).trans
    ((Ideal.multiReduction_add_single w 0x00000000#32 reduces_S4096x1_S1 hφ hacc (ix1 (0 : Fin 1))).trans
      (Finset.sum_congr rfl fun r _ => congrArg w (funext fun a => Fin.ext (by match a with | ⟨0, _⟩ => rfl | ⟨1, _⟩ => rfl))))

/-- The positive accumulator after a point: the old cell plus the block's squared distances. -/
theorem posAcc_cell (x y : FVec Ideal S4096x128 .f32) (acc : FVec Ideal S1x1 .f32) :
    k0_pay5 (F := Ideal) x y acc cell = acc cell + blockSq x y := by
  unfold k0_pay5
  simp only [shapeCast_self]
  refine congrArg (acc cell + ·) ?_
  refine (colSum_apply _ _ _).trans ?_
  unfold blockSq
  refine Finset.sum_congr rfl fun r _ => ?_
  exact laneSum_apply _ r (0 : Fin 1) _ _

/-- The squared hinge of a block's row, as the body computes it down the column. -/
theorem hingeCol_apply (x y : FVec Ideal S4096x128 .f32) (b : FVec Ideal S1x1 .f32) (r : Fin 4096) :
    k0_pay6 (F := Ideal) x y b (ix2 r (0 : Fin 1))
      = max (b cell - Ideal.sqrt (rowSqB x y r)) 0 * max (b cell - Ideal.sqrt (rowSqB x y r)) 0 := by
  unfold k0_pay6
  simp only [shapeCast_self]
  have hrow := laneSum_apply (mulf (subf x y) (subf x y)) r (0 : Fin 1) (.inl rfl) rfl
  have hb := Cert.LibCells.broadcastTo_11_a1_apply b broadcasts_S1x1_S4096x1 r (0 : Fin 1)
  show max (broadcastTo S4096x1 b broadcasts_S1x1_S4096x1 (ix2 r (0 : Fin 1))
        - Ideal.sqrt (shapeCast S4096x1 (multiReduction .add [1] S4096 (mulf (subf x y) (subf x y)) 0x00000000#32 reduces_S4096x128_S4096 (.inl rfl) rfl) shapeCasts_S4096_S4096x1 (ix2 r (0 : Fin 1))))
      (Ideal.ofBits .f32 0x00000000#32)
    * max (broadcastTo S4096x1 b broadcasts_S1x1_S4096x1 (ix2 r (0 : Fin 1))
        - Ideal.sqrt (shapeCast S4096x1 (multiReduction .add [1] S4096 (mulf (subf x y) (subf x y)) 0x00000000#32 reduces_S4096x128_S4096 (.inl rfl) rfl) shapeCasts_S4096_S4096x1 (ix2 r (0 : Fin 1))))
      (Ideal.ofBits .f32 0x00000000#32) = _
  rw [hrow, hb, Ideal.ofBits_zero_f32]
  rfl

/-- The negative accumulator after a point: the old cell plus the block's squared hinges. -/
theorem negAcc_cell (x y : FVec Ideal S4096x128 .f32) (b acc : FVec Ideal S1x1 .f32) :
    k0_pay1 (F := Ideal) acc (k0_pay6 (F := Ideal) x y b) cell = acc cell + blockHinge (b cell) x y := by
  unfold k0_pay1
  simp only [shapeCast_self]
  refine congrArg (acc cell + ·) ?_
  refine (colSum_apply _ _ _).trans ?_
  unfold blockHinge
  exact Finset.sum_congr rfl fun r _ => hingeCol_apply x y b r

/-- The zero cell the first point stores into the positive accumulator. -/
theorem zeroPos_cell : k0_pay3 (F := Ideal) cell = 0 := by
  unfold k0_pay3
  simp only [shapeCast_self]
  exact Ideal.ofBits_zero_f32

/-- The zero cell the first point stores into the negative accumulator. -/
theorem zeroNeg_cell : k0_pay4 (F := Ideal) cell = 0 := by
  unfold k0_pay4
  simp only [shapeCast_self]
  exact Ideal.ofBits_zero_f32

/-- The output row's first entry: the scale times the positive accumulator. -/
theorem outRow_left (u v : FVec Ideal S1x1 .f32) :
    k0_pay2 (F := Ideal) u v (ix2 (0 : Fin 1) (0 : Fin 2)) = Ideal.ofBits .f32 0x36000000#32 * u cell := by
  unfold k0_pay2
  exact Cert.LibCells.concat_cells_left _ _ _

/-- The output row's second entry: the scale times the negative accumulator. -/
theorem outRow_right (u v : FVec Ideal S1x1 .f32) :
    k0_pay2 (F := Ideal) u v (ix2 (0 : Fin 1) (1 : Fin 2)) = Ideal.ofBits .f32 0x36000000#32 * v cell := by
  unfold k0_pay2
  exact Cert.LibCells.concat_cells_right _ _ _

end Cert.KernelIdeal.Payloads

end
-- ==== Proof.LossMath.lean ====
/-
  The contrastive loss as a function of the four gathered row arrays and the margin, and the two facts
  of arithmetic that join the blocked accumulation to the plain mean.

  For pair arrays `a, b : [262144, 128]` the squared distance of pair `p` is
  `rowSq a b p = ∑ d, (a p d - b p d)²`; with margin `β` the hinge term of pair `p` is
  `(max (β - √(rowSq a b p)) 0)²`. The positive loss is `2⁻¹⁹ · ∑ p, rowSq` and the negative loss
  `2⁻¹⁹ · ∑ p, hinge`: half of the mean over the `2¹⁸` pairs.

  * `half_mean`: on every extended real `S`, `½ · (S / 2¹⁸) = 2⁻¹⁹ · S` (division by a nonzero real is
    multiplication by its inverse, and multiplication of extended reals is commutative and associative).
  * `sum_tiles`: a sum over `2¹⁸` pairs is the sum over the 64 blocks of 4096 consecutive pairs of the
    blocks' sums.
-/
import Idealize.ShloMosaic.PureOps.Ideal
import Idealize.ShloMosaic.PureOps.Ideal.Laws
import Idealize.ShloMosaic.Lib.ValueIdx

noncomputable section

namespace Cert.LossMath

open Idealize.ShloMosaic Idealize.ShloMosaic.ValueIdx

/-! ## The three float literals -/

/-- The kernel's scale `1.9073486e-06` is exactly `2⁻¹⁹`. -/
theorem ofBits_scale : Ideal.ofBits .f32 0x36000000#32 = (((1 : ℝ) / 524288 : ℝ) : EReal) := by
  simp [Ideal.ofBits, Ideal.ieee, -EReal.coe_mul]; norm_num

/-- The reference's `0.5`. -/
theorem ofBits_half : Ideal.ofBits .f32 0x3F000000#32 = (((1 : ℝ) / 2 : ℝ) : EReal) := by
  simp [Ideal.ofBits, Ideal.ieee, -EReal.coe_mul]; norm_num

/-- The reference's pair count `262144.0 = 2¹⁸`. -/
theorem ofBits_count : Ideal.ofBits .f32 0x48800000#32 = ((262144 : ℝ) : EReal) := by
  simp [Ideal.ofBits, Ideal.ieee, -EReal.coe_mul]; norm_num

/-- Half of a mean over `2¹⁸` terms is the `2⁻¹⁹` multiple of their sum, at every extended real. -/
theorem half_mean (S : EReal) :
    Ideal.ofBits .f32 0x3F000000#32 * Ideal.div S (Ideal.ofBits .f32 0x48800000#32)
      = Ideal.ofBits .f32 0x36000000#32 * S := by
  rw [ofBits_half, ofBits_count, ofBits_scale, Ideal.div_coe (by norm_num : (262144 : ℝ) ≠ 0), mul_comm S, ← mul_assoc,
    ← EReal.coe_mul]
  congr 2
  norm_num

/-! ## Blocks of consecutive pairs -/

/-- A sum over `T · B` consecutive positions is the sum over the `T` blocks of the `B` positions of each. -/
theorem sum_blocks {M : Type*} [AddCommMonoid M] (T B : ℕ) (g : Fin (T * B) → M) :
    ∑ p : Fin (T * B), g p
      = ∑ t : Fin T, ∑ r : Fin B, g ⟨B * t.val + r.val, by
          have ht := t.isLt; have hr := r.isLt
          calc B * t.val + r.val < B * t.val + B := by omega
            _ = B * (t.val + 1) := by ring
            _ ≤ B * T := Nat.mul_le_mul_left _ ht
            _ = T * B := Nat.mul_comm _ _⟩ := by
  rw [← finProdFinEquiv.sum_comp, Fintype.sum_prod_type]
  refine Finset.sum_congr rfl fun t _ => Finset.sum_congr rfl fun r _ => congrArg g (Fin.ext ?_)
  show r.val + B * t.val = B * t.val + r.val
  omega

/-- The pairs, 64 blocks of 4096. -/
theorem sum_tiles {M : Type*} [AddCommMonoid M] (g : Fin 262144 → M) :
    ∑ p : Fin 262144, g p
      = ∑ t : Fin 64, ∑ r : Fin 4096, g ⟨4096 * t.val + r.val, by have := t.isLt; have := r.isLt; omega⟩ :=
  sum_blocks 64 4096 g

/-! ## The loss -/

/-- Pair arrays: `262144` rows of `128` features. -/
abbrev Pairs : Shape := ⟨2, ![262144, 128]⟩

/-- The squared distance of pair `p`. -/
def rowSq (a b : Pairs.Idx → EReal) (p : Fin 262144) : EReal :=
  ∑ d : Fin 128, (a (ix2 p d) - b (ix2 p d)) * (a (ix2 p d) - b (ix2 p d))

/-- The squared hinge of pair `p` at margin `β`. -/
def hinge (β : EReal) (a b : Pairs.Idx → EReal) (p : Fin 262144) : EReal :=
  max (β - Ideal.sqrt (rowSq a b p)) 0 * max (β - Ideal.sqrt (rowSq a b p)) 0

/-- Half the mean squared distance of the positive pairs. -/
def posLoss (a b : Pairs.Idx → EReal) : EReal :=
  Ideal.ofBits .f32 0x36000000#32 * ∑ p : Fin 262144, rowSq a b p

/-- Half the mean squared hinge of the negative pairs. -/
def negLoss (β : EReal) (a b : Pairs.Idx → EReal) : EReal :=
  Ideal.ofBits .f32 0x36000000#32 * ∑ p : Fin 262144, hinge β a b p

end Cert.LossMath

end
-- ==== Proof.RefRead.lean ====
/-
  The reference program's two results, as the loss of its four gathered row arrays and its margin.

  The reference subtracts the gathered rows, squares, sums each row's 128 lanes, and — for the positive
  pairs — sums the 262144 rows, divides by the count and halves; for the negative pairs it takes each
  row's square root, the margin minus it, the maximum with zero, the square, and then the same mean and
  half. Read index by index, the first result is `posLoss` of the two positive gathers and the second
  `negLoss` of the margin and the two negative gathers (`half_mean` turns the halved mean into the scaled sum).
-/
import proofs.«150820_j4157528343143_1_alg».proof.Defs
import proofs.«150820_j4157528343143_1_alg».proof.Proof.Gen.ReferenceIdeal.Run
import proofs.«150820_j4157528343143_1_alg».proof.Proof.Gen.ReferenceIdeal.Read
import proofs.«150820_j4157528343143_1_alg».proof.Proof.LossMath
import proofs.«150820_j4157528343143_1_alg».proof.Proof.LibCells

noncomputable section

namespace Cert.ReferenceIdeal.RefValue

open Cert.ReferenceIdeal Cert.ReferenceIdeal.Read Cert.LossMath Idealize.ShloMosaic Idealize.ShloMosaic.ValueIdx

variable (x0 : (⟨S8192x128, .f32⟩ : BufTy).Contents (Elt Ideal)) (x2 : (⟨S_, .f32⟩ : BufTy).Contents (Elt Ideal))
  (x4 x5 : (⟨S262144x2, .i32⟩ : BufTy).Contents (Elt Ideal))

/-- The squared distance of a positive pair, as the reference sums it. -/
theorem posRow_apply (p : Fin 262144) :
    val_main_v21 (F := Ideal) x0 x4 (ix1 p) = rowSq (val_main_v9 (F := Ideal) x0 x4) (val_main_v18 (F := Ideal) x0 x4) p := by
  rw [val_main_v21_apply]
  show Ideal.ofBits .f32 0x00000000#32 + _ = _
  rw [Ideal.ofBits_zero_f32, zero_add]
  unfold rowSq
  refine Finset.sum_congr rfl fun d _ => ?_
  have hi : idx_main_v21 (ix1 p) d = ix2 p d := funext fun a => Fin.ext (by match a with | ⟨0, _⟩ => rfl | ⟨1, _⟩ => rfl)
  rw [hi]
  rfl

/-- The reference's first result: half the mean squared distance of the positive pairs. -/
theorem pos_eq :
    val_main_v56 (F := Ideal) x0 x2 x4 x5 (ix1 (0 : Fin 2))
      = posLoss (val_main_v9 (F := Ideal) x0 x4) (val_main_v18 (F := Ideal) x0 x4) := by
  unfold val_main_v56
  rw [Cert.LibCells.concat_vec_left, val_main_v54_apply, val_main_v46_apply, val_main_v45_apply, val_main_v44_apply]
  show Ideal.ofBits .f32 0x3F000000#32 * Ideal.div (Ideal.ofBits .f32 0x00000000#32 + _) (Ideal.ofBits .f32 0x48800000#32) = _
  rw [Ideal.ofBits_zero_f32, zero_add, half_mean, Cert.LibCells.sum_idx1]
  unfold posLoss
  exact congrArg (_ * ·) (Finset.sum_congr rfl fun p _ => posRow_apply x0 x4 p)

/-- The squared distance of a negative pair, as the reference sums it. -/
theorem negRow_apply (p : Fin 262144) :
    val_main_v42 (F := Ideal) x0 x5 (ix1 p) = rowSq (val_main_v30 (F := Ideal) x0 x5) (val_main_v39 (F := Ideal) x0 x5) p := by
  rw [val_main_v42_apply]
  show Ideal.ofBits .f32 0x00000000#32 + _ = _
  rw [Ideal.ofBits_zero_f32, zero_add]
  unfold rowSq
  refine Finset.sum_congr rfl fun d _ => ?_
  have hi : idx_main_v42 (ix1 p) d = ix2 p d := funext fun a => Fin.ext (by match a with | ⟨0, _⟩ => rfl | ⟨1, _⟩ => rfl)
  rw [hi]
  rfl

/-- The squared hinge of a negative pair, as the reference computes it. -/
theorem hinge_apply (p : Fin 262144) :
    val_main_v50 (F := Ideal) x0 x2 x5 (ix1 p)
      = hinge (val_main_v0 (F := Ideal) x2 ix0) (val_main_v30 (F := Ideal) x0 x5) (val_main_v39 (F := Ideal) x0 x5) p := by
  rw [val_main_v50_apply, val_main_v49_apply, val_main_v48_apply, val_main_v47_apply, val_main_v43_apply,
    val_main_call1_v0_apply, negRow_apply]
  show max (val_main_v0 (F := Ideal) x2 _ - Ideal.sqrt _) (Ideal.ofBits .f32 0x00000000#32)
      * max (val_main_v0 (F := Ideal) x2 _ - Ideal.sqrt _) (Ideal.ofBits .f32 0x00000000#32) = _
  rw [Ideal.ofBits_zero_f32, eq_ix0 (idx_main_v47 (ix1 p))]
  rfl

/-- The reference's second result: half the mean squared hinge of the negative pairs. -/
theorem neg_eq :
    val_main_v56 (F := Ideal) x0 x2 x4 x5 (ix1 (1 : Fin 2))
      = negLoss (val_main_v0 (F := Ideal) x2 ix0) (val_main_v30 (F := Ideal) x0 x5) (val_main_v39 (F := Ideal) x0 x5) := by
  unfold val_main_v56
  rw [Cert.LibCells.concat_vec_right, val_main_v55_apply, val_main_v53_apply, val_main_v52_apply, val_main_v51_apply]
  show Ideal.ofBits .f32 0x3F000000#32 * Ideal.div (Ideal.ofBits .f32 0x00000000#32 + _) (Ideal.ofBits .f32 0x48800000#32) = _
  rw [Ideal.ofBits_zero_f32, zero_add, half_mean, Cert.LibCells.sum_idx1]
  unfold negLoss
  exact congrArg (_ * ·) (Finset.sum_congr rfl fun p _ => hinge_apply x0 x2 x5 p)

end Cert.ReferenceIdeal.RefValue

end
-- ==== Proof.KernelValue.lean ====
/-
  The kernel program's result, read at its two indices, on the extended reals.

  Block `t` of a pair array holds its rows `4096·t … 4096·t + 4095`, so the positive accumulator after the
  last point is the sum over the 64 blocks of their 4096 rows' squared distances — the sum over all 262144
  pairs — and the negative one the sum of all pairs' squared hinges at the margin cell. The output row the
  last point stores is the scaled pair; the one write-back, at the last point, writes the whole `[1, 2]`
  result array; the reshape after the region reads entry `k` of the result at `(0, k)` of that array.
  The arrays the region finds were written by the host operations before it: the four row gathers and the
  margin cast to a cell, each the same function of the arguments as the reference's stage of that name.
-/
import proofs.«150820_j4157528343143_1_alg».proof.Proof.KernelAccum
import proofs.«150820_j4157528343143_1_alg».proof.Proof.KernelPayloads
import proofs.«150820_j4157528343143_1_alg».proof.Proof.LossMath
import proofs.«150820_j4157528343143_1_alg».proof.Proof.RefRead
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pieces Cert.KernelIdeal.Accum Cert.KernelIdeal.Payloads Cert.LossMath

variable (m : (ℓ : Loc nD τ sig) → Buf (Elt Ideal) ℓ) (ρ : Dev nD → PrngReg)

/-! ## Where each window's block sits -/

theorem idx_cell : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx_rows1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_rows2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_rows3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_rows4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_out : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Row `r` of block `t` is row `4096·t + r` of the array. -/
abbrev rowOf (t : Fin cfg0.N) (r : Fin 4096) : Fin 262144 :=
  ⟨4096 * t.val + r.val, by have h1 := t.isLt; have h2 : cfg0.N = 64 := N_0; have := r.isLt; omega⟩

/-! ## The blocks the body loads -/

/-- Window 1's block at point `t`, entry `(r, d)`: row `4096·t + r` of its array. -/
theorem blk1_apply (c : Dev nD) (t : Fin cfg0.N) (r : Fin 4096) (d : Fin 128) :
    (iblk m c 1 t : Vec Ideal S4096x128 .f32) (ix2 r d) = (V m c main_v10 : Pairs.Idx → EReal) (ix2 (rowOf t r) d) := by
  unfold iblk
  rw [View.read_apply]
  show V m c main_v10 _ = V m c main_v10 _
  refine congrArg (V m c main_v10) (funext fun a => Fin.ext ?_)
  match a with
  | ⟨0, _⟩ =>
    show win0_1.index t 0 * 4096 + 1 * r.val = 4096 * t.val + r.val
    rw [(idx_rows1 t).1]; omega
  | ⟨1, _⟩ =>
    show win0_1.index t 1 * 128 + 1 * d.val = d.val
    rw [(idx_rows1 t).2]; omega

/-- Window 2's block at point `t`, entry `(r, d)`: row `4096·t + r` of its array. -/
theorem blk2_apply (c : Dev nD) (t : Fin cfg0.N) (r : Fin 4096) (d : Fin 128) :
    (iblk m c 2 t : Vec Ideal S4096x128 .f32) (ix2 r d) = (V m c main_v19 : Pairs.Idx → EReal) (ix2 (rowOf t r) d) := by
  unfold iblk
  rw [View.read_apply]
  show V m c main_v19 _ = V m c main_v19 _
  refine congrArg (V m c main_v19) (funext fun a => Fin.ext ?_)
  match a with
  | ⟨0, _⟩ =>
    show win0_2.index t 0 * 4096 + 1 * r.val = 4096 * t.val + r.val
    rw [(idx_rows2 t).1]; omega
  | ⟨1, _⟩ =>
    show win0_2.index t 1 * 128 + 1 * d.val = d.val
    rw [(idx_rows2 t).2]; omega

/-- Window 3's block at point `t`, entry `(r, d)`: row `4096·t + r` of its array. -/
theorem blk3_apply (c : Dev nD) (t : Fin cfg0.N) (r : Fin 4096) (d : Fin 128) :
    (iblk m c 3 t : Vec Ideal S4096x128 .f32) (ix2 r d) = (V m c main_v28 : Pairs.Idx → EReal) (ix2 (rowOf t r) d) := by
  unfold iblk
  rw [View.read_apply]
  show V m c main_v28 _ = V m c main_v28 _
  refine congrArg (V m c main_v28) (funext fun a => Fin.ext ?_)
  match a with
  | ⟨0, _⟩ =>
    show win0_3.index t 0 * 4096 + 1 * r.val = 4096 * t.val + r.val
    rw [(idx_rows3 t).1]; omega
  | ⟨1, _⟩ =>
    show win0_3.index t 1 * 128 + 1 * d.val = d.val
    rw [(idx_rows3 t).2]; omega

/-- Window 4's block at point `t`, entry `(r, d)`: row `4096·t + r` of its array. -/
theorem blk4_apply (c : Dev nD) (t : Fin cfg0.N) (r : Fin 4096) (d : Fin 128) :
    (iblk m c 4 t : Vec Ideal S4096x128 .f32) (ix2 r d) = (V m c main_v37 : Pairs.Idx → EReal) (ix2 (rowOf t r) d) := by
  unfold iblk
  rw [View.read_apply]
  show V m c main_v37 _ = V m c main_v37 _
  refine congrArg (V m c main_v37) (funext fun a => Fin.ext ?_)
  match a with
  | ⟨0, _⟩ =>
    show win0_4.index t 0 * 4096 + 1 * r.val = 4096 * t.val + r.val
    rw [(idx_rows4 t).1]; omega
  | ⟨1, _⟩ =>
    show win0_4.index t 1 * 128 + 1 * d.val = d.val
    rw [(idx_rows4 t).2]; omega

/-- The margin window's block is the margin cell at every point. -/
theorem blk0_apply (c : Dev nD) (t : Fin cfg0.N) :
    (iblk m c 0 t : Vec Ideal S1x1 .f32) cell = (V m c main_v1 : S1x1.Idx → EReal) cell := by
  unfold iblk
  rw [View.read_apply]
  show V m c main_v1 _ = V m c main_v1 _
  refine congrArg (V m c main_v1) (funext fun a => Fin.ext ?_)
  match a with
  | ⟨0, _⟩ =>
    show win0_0.index t 0 * 1 + 1 * 0 = 0
    rw [(idx_cell t).1]
  | ⟨1, _⟩ =>
    show win0_0.index t 1 * 1 + 1 * 0 = 0
    rw [(idx_cell t).2]

/-- The squared distance of row `r` of the positive blocks at point `t` is pair `4096·t + r`'s. -/
theorem posRow_eq (c : Dev nD) (t : Fin cfg0.N) (r : Fin 4096) :
    rowSqB (iblk m c 1 t) (iblk m c 2 t) r = rowSq (V m c main_v10) (V m c main_v19) (rowOf t r) := by
  unfold rowSqB rowSq
  refine Finset.sum_congr rfl fun d _ => ?_
  rw [blk1_apply, blk2_apply]

/-- … and of the negative blocks. -/
theorem negRow_eq (c : Dev nD) (t : Fin cfg0.N) (r : Fin 4096) :
    rowSqB (iblk m c 3 t) (iblk m c 4 t) r = rowSq (V m c main_v28) (V m c main_v37) (rowOf t r) := by
  unfold rowSqB rowSq
  refine Finset.sum_congr rfl fun d _ => ?_
  rw [blk3_apply, blk4_apply]

/-! ## The accumulators as sums over the points so far -/

/-- The margin: the cell the region finds in the margin array. -/
abbrev margin (c : Dev nD) : EReal := (V m c main_v1 : S1x1.Idx → EReal) cell

/-- The positive pairs' contribution of point `t`. -/
def posBlk (c : Dev nD) (t : ℕ) : EReal :=
  if h : t < cfg0.N then ∑ r : Fin 4096, rowSq (V m c main_v10) (V m c main_v19) (rowOf ⟨t, h⟩ r) else 0

/-- The negative pairs' contribution of point `t`. -/
def negBlk (c : Dev nD) (t : ℕ) : EReal :=
  if h : t < cfg0.N then ∑ r : Fin 4096, hinge (margin m c) (V m c main_v28) (V m c main_v37) (rowOf ⟨t, h⟩ r) else 0

theorem posBlk_eq (c : Dev nD) (t : ℕ) (h : t < cfg0.N) :
    blockSq (iblk m c 1 ⟨t, h⟩) (iblk m c 2 ⟨t, h⟩) = posBlk m c t := by
  unfold blockSq posBlk
  rw [dif_pos h]
  exact Finset.sum_congr rfl fun r _ => posRow_eq m c ⟨t, h⟩ r

theorem negBlk_eq (c : Dev nD) (t : ℕ) (h : t < cfg0.N) :
    blockHinge ((iblk m c 0 ⟨t, h⟩ : Vec Ideal S1x1 .f32) cell) (iblk m c 3 ⟨t, h⟩) (iblk m c 4 ⟨t, h⟩) = negBlk m c t := by
  unfold blockHinge negBlk hinge
  rw [dif_pos h, blk0_apply]
  exact Finset.sum_congr rfl fun r _ => by rw [negRow_eq]

/-- After point `n` each accumulator's cell is the sum of the contributions of points `0 … n`. -/
theorem accs_cells (c : Dev nD) : ∀ (n : ℕ) (h : n < cfg0.N),
    (accs m c n h).1 cell = ∑ t ∈ Finset.range (n + 1), posBlk m c t
      ∧ (accs m c n h).2 cell = ∑ t ∈ Finset.range (n + 1), negBlk m c t
  | 0, h => by
    rw [Finset.sum_range_one, Finset.sum_range_one, ← posBlk_eq m c 0 h, ← negBlk_eq m c 0 h]
    constructor
    · refine (posAcc_cell (iblk m c 1 ⟨0, h⟩) (iblk m c 2 ⟨0, h⟩) k0_pay3).trans ?_
      rw [zeroPos_cell, zero_add]
    · refine (negAcc_cell (iblk m c 3 ⟨0, h⟩) (iblk m c 4 ⟨0, h⟩) (iblk m c 0 ⟨0, h⟩) k0_pay4).trans ?_
      rw [zeroNeg_cell, zero_add]
  | n + 1, h => by
    obtain ⟨ihp, ihn⟩ := accs_cells c n (Nat.lt_of_succ_lt h)
    rw [Finset.sum_range_succ _ (n + 1), Finset.sum_range_succ _ (n + 1), ← posBlk_eq m c (n + 1) h, ← negBlk_eq m c (n + 1) h,
      ← ihp, ← ihn]
    exact ⟨posAcc_cell (iblk m c 1 ⟨n + 1, h⟩) (iblk m c 2 ⟨n + 1, h⟩) (accs m c n (Nat.lt_of_succ_lt h)).1,
      negAcc_cell (iblk m c 3 ⟨n + 1, h⟩) (iblk m c 4 ⟨n + 1, h⟩) (iblk m c 0 ⟨n + 1, h⟩) (accs m c n (Nat.lt_of_succ_lt h)).2⟩

theorem h63 : 63 < cfg0.N := by rw [show cfg0.N = 64 from N_0]; decide

/-- The contributions of the 64 points add up to the sum over all pairs. -/
theorem sum_points {M : Type*} [AddCommMonoid M] (g : Fin 262144 → M) (f : ℕ → M)
    (hf : ∀ (t : ℕ) (h : t < cfg0.N), f t = ∑ r : Fin 4096, g (rowOf ⟨t, h⟩ r)) :
    ∑ t ∈ Finset.range (63 + 1), f t = ∑ p : Fin 262144, g p := by
  have hN : cfg0.N = 64 := N_0
  rw [sum_tiles, show (63 + 1 : ℕ) = 64 from rfl, Finset.sum_range]
  exact Finset.sum_congr rfl fun t _ => hf t.val (by have := t.isLt; omega)

/-- The positive accumulator after the last point: the sum of all pairs' squared distances. -/
theorem pos_total (c : Dev nD) :
    (accs m c 63 h63).1 cell = ∑ p : Fin 262144, rowSq (V m c main_v10) (V m c main_v19) p := by
  rw [(accs_cells m c 63 h63).1]
  exact sum_points _ _ fun t h => by unfold posBlk; rw [dif_pos h]

/-- The negative accumulator after the last point: the sum of all pairs' squared hinges. -/
theorem neg_total (c : Dev nD) :
    (accs m c 63 h63).2 cell = ∑ p : Fin 262144, hinge (margin m c) (V m c main_v28) (V m c main_v37) p := by
  rw [(accs_cells m c 63 h63).2]
  exact sum_points _ _ fun t h => by unfold negBlk; rw [dif_pos h]

/-! ## The result array after the region, and the reshape after it -/

/-- The output row the last point stores. -/
abbrev lastRow (c : Dev nD) : Vec Ideal S1x2 .f32 := k0_pay2 (accs m c 63 h63).1 (accs m c 63 h63).2

theorem xsz_out : ∀ t : Fin cfg0.N, win0_5.xsize (grid0.coords t) (0 : Fin 2) = 1 ∧ win0_5.xsize (grid0.coords t) (1 : Fin 2) = 2 :=
  (by decide +kernel : ∀ t : Fin grid0.N, win0_5.xsize (grid0.coords t) (0 : Fin 2) = 1 ∧ win0_5.xsize (grid0.coords t) (1 : Fin 2) = 2)

/-- The one write-back, at the last point, writes the output row: block `(0, 0)` of the `[1, 2]` array is the array. -/
theorem flushed_eq (c : Dev nD) (t : Fin cfg0.N) (hf : (cfg0.win 5).flush t = true) :
    (dats m 0 c).flushed 5 t = ((cfg0.win 5).blk t).view.read (Elt Ideal) (lastRow m c) := by
  have hN : cfg0.N = 64 := N_0
  have ht : t.val % 64 = 63 := (flush0_5 t).mp hf
  have hrow : (dats m 0 c).after 5 t = lastRow m c := by
    rw [after0_5]
    obtain ⟨n, hn⟩ := t
    cases n with
    | zero => dsimp only at ht; omega
    | succ n =>
      refine (row_eq m c n hn ht).trans ?_
      rw [accs_congr m c (n + 1) 63 (by dsimp only at ht; omega) hn h63]
  show (cfg0.win 5).cut (grid0.coords t) ((dats m 0 c).after 5 t) = _
  rw [hrow]
  have hz' : (fun a => win0_5.index t a * main_v38.ty.shape.size a) = fun _ => 0 := funext fun a => by
    match a with
    | ⟨0, _⟩ => show win0_5.index t 0 * _ = 0; rw [(idx_out t).1, Nat.zero_mul]
    | ⟨1, _⟩ => show win0_5.index t 1 * _ = 0; rw [(idx_out t).2, Nat.zero_mul]
  exact (Memref.read_access_unit_zero (Elt Ideal) main_v38 hz' (fun a => by rw [congrFun hz' a]; simp) (lastRow m c)).symm

/-- So the result array ends holding the output row. -/
theorem arr_eq (c : Dev nD) : (dats m 0 c).arrAt 5 cfg0.N = lastRow m c := by
  obtain ⟨tl, htl⟩ : ∃ t : Fin cfg0.N, t.val % 64 = 63 := ⟨⟨63, h63⟩, rfl⟩
  refine (dats m 0 c).arrAt_eq_of_cover 5 (lastRow m c) (flushed_eq m c) fun i => ⟨tl, (flush0_5 tl).mpr htl, ?_⟩
  show i ∈ ((View.whole main_v38).slice (win0_5.rect tl)).set
  rw [View.set_slice_whole, Rect.mem_set_unit]
  intro a
  have h0 : (i 0 : Nat) < 1 := (i 0).isLt
  have h1 : (i 1 : Nat) < 2 := (i 1).isLt
  match a with
  | ⟨0, _⟩ =>
    show win0_5.index tl 0 * win0_5.size 0 ≤ (i 0 : Nat) ∧ (i 0 : Nat) < win0_5.index tl 0 * win0_5.size 0 + win0_5.xsize (grid0.coords tl) 0
    rw [(idx_out tl).1, (xsz_out tl).1]; omega
  | ⟨1, _⟩ =>
    show win0_5.index tl 1 * win0_5.size 1 ≤ (i 1 : Nat) ∧ (i 1 : Nat) < win0_5.index tl 1 * win0_5.size 1 + win0_5.xsize (grid0.coords tl) 1
    rw [(idx_out tl).2, (xsz_out tl).2]; omega

/-- The program's result, entry `k`: entry `(0, k)` of the output row (the reshape after the region). -/
theorem tail_apply (c : Dev nD) (k : Fin 2) :
    (Pipeline.afterTail₀ cfgs (dats m) 0 (V0 m) [hostOps1] c main_v39 : S2.Idx → EReal) (ix1 k)
      = lastRow m c (ix2 (0 : Fin 1) k) := by
  have e : (Pipeline.afterTail₀ cfgs (dats m) 0 (V0 m) [hostOps1] c main_v39 : S2.Idx → EReal)
      = shapeCast S2 (lastRow m c) shapeCasts_S1x2_S2 := by
    unfold Pipeline.afterTail₀
    show StableHlo.after hostOps1 _ (Proc.devRef .tc main_v39) = _
    after_results
    exact congrArg (fun X => shapeCast S2 X shapeCasts_S1x2_S2)
      ((Pipeline.withArrays_arr spec0 launch0.win.arr_inj c _ _ 5).trans (arr_eq m c))
  rw [e]
  exact Cert.LibCells.shapeCast_12_2_apply _ _ k

/-! ## The arrays the region finds: the host operations before it -/

theorem head_a0 (c : Dev nD) :
    (V m c main_v10 : Pairs.Idx → EReal) = Cert.ReferenceIdeal.Read.val_main_v9 (F := Ideal) (m ((c.tc : Thread nD τ).loc main_arg0)) (m ((c.tc : Thread nD τ).loc main_arg4)) := by
  dsimp only [V, V0]
  simp only [hostOps0, hostOps0_1, List.flatten_cons, List.flatten_nil, List.append_nil, List.cons_append, List.nil_append]
  after_results_simp
  rfl

theorem head_a1 (c : Dev nD) :
    (V m c main_v19 : Pairs.Idx → EReal) = Cert.ReferenceIdeal.Read.val_main_v18 (F := Ideal) (m ((c.tc : Thread nD τ).loc main_arg0)) (m ((c.tc : Thread nD τ).loc main_arg4)) := by
  dsimp only [V, V0]
  simp only [hostOps0, hostOps0_1, List.flatten_cons, List.flatten_nil, List.append_nil, List.cons_append, List.nil_append]
  after_results_simp
  rfl

theorem head_b0 (c : Dev nD) :
    (V m c main_v28 : Pairs.Idx → EReal) = Cert.ReferenceIdeal.Read.val_main_v30 (F := Ideal) (m ((c.tc : Thread nD τ).loc main_arg0)) (m ((c.tc : Thread nD τ).loc main_arg5)) := by
  dsimp only [V, V0]
  simp only [hostOps0, hostOps0_1, List.flatten_cons, List.flatten_nil, List.append_nil, List.cons_append, List.nil_append]
  after_results_simp
  rfl

theorem head_b1 (c : Dev nD) :
    (V m c main_v37 : Pairs.Idx → EReal) = Cert.ReferenceIdeal.Read.val_main_v39 (F := Ideal) (m ((c.tc : Thread nD τ).loc main_arg0)) (m ((c.tc : Thread nD τ).loc main_arg5)) := by
  dsimp only [V, V0]
  simp only [hostOps0, hostOps0_1, List.flatten_cons, List.flatten_nil, List.append_nil, List.cons_append, List.nil_append]
  after_results_simp
  rfl

/-- The margin cell the region finds is the reference's margin. -/
theorem head_margin (c : Dev nD) :
    margin m c = Cert.ReferenceIdeal.Read.val_main_v0 (F := Ideal) (m ((c.tc : Thread nD τ).loc main_arg2)) ix0 := by
  have e : (V m c main_v1 : S1x1.Idx → EReal)
      = shapeCast S1x1 (Cert.ReferenceIdeal.Read.val_main_v0 (F := Ideal) (m ((c.tc : Thread nD τ).loc main_arg2))) shapeCasts_S_S1x1 := by
    dsimp only [V, V0]
    simp only [hostOps0, hostOps0_1, List.flatten_cons, List.flatten_nil, List.append_nil, List.cons_append, List.nil_append]
    after_results_simp
    rfl
  show (V m c main_v1 : S1x1.Idx → EReal) cell = _
  rw [e]
  exact Cert.LibCells.shapeCast_scalar_cell_apply _ _

/-! ## The program's result is the reference's function of the arguments -/

/-- The result as the tail leaves it. -/
abbrev result (c : Dev nD) : S2.Idx → EReal := Pipeline.afterTail₀ cfgs (dats m) 0 (V0 m) [hostOps1] c main_v39

/-- Entry 0: half the mean squared distance of the positive pairs; entry 1: half the mean squared hinge of the
    negative pairs — the reference's two entries. -/
theorem result_eq (c : Dev nD) :
    result m c = Cert.ReferenceIdeal.Read.val_main_v56 (F := Ideal) (m ((c.tc : Thread nD τ).loc main_arg0)) (m ((c.tc : Thread nD τ).loc main_arg2)) (m ((c.tc : Thread nD τ).loc main_arg4)) (m ((c.tc : Thread nD τ).loc main_arg5)) := by
  funext j
  obtain ⟨k, rfl⟩ : ∃ k : Fin 2, j = ix1 k := ⟨j 0, eq_ix1 j⟩
  match k with
  | ⟨0, _⟩ =>
    refine (tail_apply m c (0 : Fin 2)).trans ?_
    refine (outRow_left _ _).trans ?_
    rw [pos_total, head_a0, head_a1]
    exact (Cert.ReferenceIdeal.RefValue.pos_eq _ _ _ _).symm
  | ⟨1, _⟩ =>
    refine (tail_apply m c (1 : Fin 2)).trans ?_
    refine (outRow_right _ _).trans ?_
    rw [neg_total, head_margin, head_b0, head_b1]
    exact (Cert.ReferenceIdeal.RefValue.neg_eq _ _ _ _).symm

/-- The run, read: the result at the reference's function of the argument arrays, the arguments unchanged. -/
theorem run : θ_run defs (onTc (τ := τ) (main (F := Ideal))) ⟨m, fun _ => 0, ρ⟩ fun r => ∀ c : Dev nD,
      r.2.mem ((c.tc : Thread nD τ).loc main_v39)
        = Cert.ReferenceIdeal.Read.val_main_v56 (F := Ideal) (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v39 (Pipeline.mem_restRefs_of main_v39 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.lean ====
/-
  The contrastive loss kernel against its reference, on the extended reals.

  Both programs gather the same four row arrays from the embedding table — two rows per positive pair, two
  per negative pair, the indices wrapped the same way — and take the same margin, a softplus of the bias.
  For pair arrays `a, b` write `rowSq a b p = ∑ d, (a p d - b p d)²`.

  The reference returns `(½ · mean_p rowSq, ½ · mean_p (max (β - √rowSq) 0)²)` over the `2¹⁸` pairs.
  The kernel walks the pairs in 64 blocks of 4096, keeps the two running sums in scratch cells — set to zero
  at the first block, each block's row sums added in turn — and at the last block writes
  `(2⁻¹⁹ · pos, 2⁻¹⁹ · neg)`. The two agree because
  * a sum over `2¹⁸` pairs is the sum over the blocks of the blocks' sums (addition of extended reals is
    commutative and associative, so no finiteness is needed), and
  * `½ · (S / 2¹⁸) = 2⁻¹⁹ · S` at every extended real `S` (division by a nonzero real is multiplication by
    its inverse).
  The kernel's result is read off the generated frame run: what each control case leaves in the scratch and
  the output row (Proof/KernelPieces), the accumulators point by point (Proof/KernelAccum), the stored
  values index by index (Proof/KernelPayloads), and the blocks, the write-back and the host operations around
  the region (Proof/KernelValue). The reference's result is read off its generated run (Proof/RefRead).
  No operation of the kernel is rewritten in its idealization: the idealized kernel is the kernel's own text read on
  the extended reals.
-/
import proofs.«150820_j4157528343143_1_alg».proof.Defs
import proofs.«150820_j4157528343143_1_alg».proof.Proof.Gen.Kernel
import proofs.«150820_j4157528343143_1_alg».proof.Proof.Gen.Kernel.Frame
import proofs.«150820_j4157528343143_1_alg».proof.Proof.Gen.KernelIdeal
import proofs.«150820_j4157528343143_1_alg».proof.Proof.Gen.KernelIdeal.Frame
import proofs.«150820_j4157528343143_1_alg».proof.Proof.Gen.ReferenceIdeal
import proofs.«150820_j4157528343143_1_alg».proof.Proof.Gen.Pre_finite_inputs
import proofs.«150820_j4157528343143_1_alg».proof.Proof.KernelValue
import proofs.«150820_j4157528343143_1_alg».proof.Proof.RefRead
import Idealize.ShloMosaic.Adequacy
import Idealize.ShloMosaic.Init

noncomputable section

namespace Cert.Proof

open Idealize.ShloMosaic Idealize.ShloMosaic.TcCoe Idealize.SL.Sem

/-- The kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel is rewritten in its idealization. -/
theorem preserves : Cert.preserves_Kernel_KernelIdeal := trivial

/-- From arguments that agree, both programs end with the reference's function of the arguments: the kernel by
    `KValue.run`, the reference by its generated run. -/
theorem algebraic : Cert.algebraic_KernelIdeal_ReferenceIdeal := by
  intro m ρ m' ρ' _ hagree
  refine ⟨fun c => Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
